-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : FVec F S4096x200 .f32) (main_arg1 : IVec S4096x200 32) : IVec S_ 1 :=
  let main_v0 : FVec F S4096x200 .f32 := Host.absf main_arg0
  let main_cst : FVec F S_ .f32 := constant S_ .f32 0x7F800000#32
  let main_v1 : FVec F S4096x200 .f32 := broadcastInDim S4096x200 ![] bcast_S_S4096x200 main_cst
  let main_v2 : IVec S4096x200 1 := cmpf .olt main_v0 main_v1
  let main_c : IVec S_ 1 := constantI S_ 1 1#1
  let main_v3 : IVec S_ 1 := (fun x v => Host.reduce IntOp.andi x v reducesTo_S4096x200_S_d0_1 h_S_) main_v2 main_c
  main_v3
-- ==== Kernel.lean ====
abbrev S4096x200 : Shape := ⟨2, ![4096, 200]⟩
abbrev S1x1 : Shape := ⟨2, ![1, 1]⟩
abbrev S64x200 : Shape := ⟨2, ![64, 200]⟩
abbrev S64x200x1 : Shape := ⟨3, ![64, 200, 1]⟩
abbrev S64x1x200 : Shape := ⟨3, ![64, 1, 200]⟩
abbrev S64x200x200 : Shape := ⟨3, ![64, 200, 200]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S1x1, .f32⟩
  | .hbm, ⟨3, _⟩ => ⟨S_, .f32⟩
  | .local _ .vmem, ⟨0, _⟩ => ⟨S64x200, .f32⟩
  | .local _ .vmem, ⟨1, _⟩ => ⟨S64x200, .f32⟩
  | .local _ .vmem, ⟨2, _⟩ => ⟨S64x200, .i32⟩
  | .local _ .vmem, ⟨3, _⟩ => ⟨S64x200, .i32⟩
  | .local _ .vmem, ⟨4, _⟩ => ⟨S1x1, .f32⟩
  | .local _ .vmem, ⟨5, _⟩ => ⟨S1x1, .f32⟩
  | _, _ => ⟨S4096x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v45 : BitVec 1 := Scalar.cmpi .eq arg0 c63_i32
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x200_S64x200_0_0 : ∀ a, (![0, 0] : Fin 2 → Nat) a + S64x200.size a ≤ S64x200.size a
  h_S64x200 : 0 < S64x200.numel
  shapeCasts_S64x200_S64x200x1 : S64x200.ShapeCasts S64x200x1
  shapeCasts_S64x200_S64x1x200 : S64x200.ShapeCasts S64x1x200
  broadcasts_S64x200x1_S64x200x200 : S64x200x1.Broadcasts S64x200x200
  broadcasts_S64x1x200_S64x200x200 : S64x1x200.Broadcasts S64x200x200
  reduces_S64x200x200_S64x200 : S64x200x200.Reduces [2] S64x200
  reduces_S64x200_S64 : S64x200.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200.size a ≤ S4096x200.size a
  hwx0_0 : ∀ i : grid0.Coords, EltTy.bits .f32 = 32 ∨ (Rect.block (s := S4096x200) S64x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200.size a ≤ S4096x200.size a
  hwx0_1 : ∀ i : grid0.Coords, EltTy.bits .i32 = 32 ∨ (Rect.block (s := S4096x200) S64x200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S64x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x200 : Shape := ⟨2, ![4096, 200]⟩
abbrev S4096x200x1 : Shape := ⟨3, ![4096, 200, 1]⟩
abbrev S4096x1x200 : Shape := ⟨3, ![4096, 1, 200]⟩
abbrev S4096x200x200 : Shape := ⟨3, ![4096, 200, 200]⟩
abbrev S_ : Shape := ⟨0, ![]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S4096x200, .f32⟩
  | .hbm, ⟨3, _⟩ => ⟨S4096x200x1, .f32⟩
  | .hbm, ⟨4, _⟩ => ⟨S4096x1x200, .f32⟩
  | .hbm, ⟨5, _⟩ => ⟨S4096x200x200, .f32⟩
  | .hbm, ⟨6, _⟩ => ⟨S4096x200x200, .f32⟩
  | .hbm, ⟨7, _⟩ => ⟨S4096x200x200, .f32⟩
  | .hbm, ⟨8, _⟩ => ⟨S4096x200x1, .f32⟩
  | .hbm, ⟨9, _⟩ => ⟨S4096x1x200, .f32⟩
  | .hbm, ⟨10, _⟩ => ⟨S_, .f32⟩
  | .hbm, ⟨11, _⟩ => ⟨S4096x1x200, .f32⟩
  | .hbm, ⟨12, _⟩ => ⟨S4096x1x200, .f32⟩
  | .hbm, ⟨13, _⟩ => ⟨S4096x200x200, .f32⟩
  | .hbm, ⟨14, _⟩ => ⟨S4096x200x200, .f32⟩
  | .hbm, ⟨15, _⟩ => ⟨S4096x200x200, .f32⟩
  | .hbm, ⟨16, _⟩ => ⟨S_, .f32⟩
  | .hbm, ⟨17, _⟩ => ⟨S4096x200x200, .f32⟩
  | .hbm, ⟨18, _⟩ => ⟨S4096x200x200, .f32⟩
  | .hbm, ⟨19, _⟩ => ⟨S_, .f32⟩
  | .hbm, ⟨20, _⟩ => ⟨S4096x200x200, .f32⟩
  | .hbm, ⟨21, _⟩ => ⟨S4096x200x200, .f32⟩
  | .hbm, ⟨22, _⟩ => ⟨S4096x200x200, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .i1⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S4096x200_S4096x200x1_0_1 : S4096x200.BroadcastsInDim S4096x200x1 (![0, 1] : Fin 2 → Fin S4096x200x1.rank)
  bcast_S4096x200_S4096x1x200_0_2 : S4096x200.BroadcastsInDim S4096x1x200 (![0, 2] : Fin 2 → Fin S4096x1x200.rank)
  bcast_S4096x200x1_S4096x200x200_0_1_2 : S4096x200x1.BroadcastsInDim S4096x200x200 (![0, 1, 2] : Fin 3 → Fin S4096x200x200.rank)
  bcast_S4096x1x200_S4096x200x200_0_1_2 : S4096x1x200.BroadcastsInDim S4096x200x200 (![0, 1, 2] : Fin 3 → Fin S4096x200x200.rank)
  bcast_S_S4096x1x200 : S_.BroadcastsInDim S4096x1x200 (![] : Fin 0 → Fin S4096x1x200.rank)
  bcast_S_S4096x200x200 : S_.BroadcastsInDim S4096x200x200 (![] : Fin 0 → Fin S4096x200x200.rank)
  reducesTo_S4096x200_S4096_d1 : S4096x200.ReducesTo [1] S4096
  h_S_ : 0 < S_.numel
  bcast_S_S4096 : S_.BroadcastsInDim S4096 (![] : Fin 0 → Fin S4096.rank)
  reducesTo_S4096x200x200_S4096_d1_2 : S4096x200x200.ReducesTo [1, 2] S4096
  reducesTo_S4096_S_d0 : S4096.ReducesTo [0] S_

variable [Facts₀]

class Facts : Prop extends Facts₀ where

variable [Facts]
-- ==== Proof.Pieces.lean ====
/-
  What the kernel body leaves behind at one grid point, as values.

  The body keeps a one-element accumulator in a scratch buffer that lives across the grid's 64 points. At every
  point it loads its 64 x 200 block of scores and of labels, reduces them to ONE number — the sum over the block's
  64 rows of the row's loss (`k0_pay4`) — and adds that number to the accumulator (`k0_pay1`). At the first point
  it first stores a zero (`k0_pay3`) and reads it back as the accumulator's old value; at the last point it also
  divides the new accumulator by the number of rows (`k0_pay2`) and stores the quotient in the output block.

  The generated frame runs the body once per case and keeps the stores it found as lists of pieces. Each lemma
  below reads such a list back: a store through the whole one-element rectangle is the stored value, and a load
  that an earlier store of the same point covers reads what was stored. They hold at every float instance.
-/
import proofs.«167054_j63350767616715_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access are all zero. -/
theorem offsets_zero : (![0, 0] : Fin 2 → Nat) = fun _ => 0 := funext fun a => by fin_cases a <;> rfl

/-- The accumulator after a point, from the block's scores `x0`, its labels `x1` and the accumulator's old value
    `acc`: the old value plus the block's sum of row losses. -/
abbrev step (x0 : Vec F S64x200 .f32) (x1 : Vec F S64x200 .i32) (acc : Vec F S1x1 .f32) : Vec F S1x1 .f32 :=
  k0_pay1 (k0_pay4 x0 x1) acc

/-- THE FIRST POINT leaves in the accumulator the stored zero plus the block's sum: the zero is stored, read back
    (a load the first store covers), and the sum is added to it. -/
theorem scratch_first (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S64x200 .f32) (x1 : Vec F S64x200 .i32) :
    sout0_A_0 c i a1 h1 a2 h2 a3 h3 a4 h4 hc0 hc1 x0 x1 = step x0 x1 (k0_pay3 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) offsets_zero, View.readCov_unit_zero (S := S1x1) _ offsets_zero]
  simp only [View.readAt_eq_ld, h1.read_unread, h2.read_unread, View.ld_unit_zero (S := S64x200) offsets_zero]

/-- A MIDDLE POINT leaves in the accumulator what the point before left (`acc`) plus the block's sum. -/
theorem scratch_middle (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S64x200 .f32) (x1 : Vec F S64x200 .i32) (acc : Vec F S1x1 .f32) :
    sout0_B_0 c i a1 h1 a2 h2 a3 h3 a4 h4 hc0 hc1 x0 x1 acc = step x0 x1 acc := by
  unfold sout0_B_0
  rw [View.read_writes_eq_canon _ _ _ (scover0_B_0 c i a1 h1 a2 h2 a3 h3 a4 h4 hc0 hc1 x0 x1 acc)]
  unfold kernelRun0_B
  dsimp only
  sl_unfold_words
  rw [View.canon_unit_zero offsets_zero]
  simp only [View.readAt_eq_ld, h1.read_unread, h2.read_unread, h4.read_unread, View.ld_unit_zero (S := S1x1) offsets_zero,
    View.ld_unit_zero (S := S64x200) offsets_zero]

/-- THE LAST POINT leaves in the accumulator the same sum as a middle point does, -/
theorem scratch_last (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S64x200 .f32) (x1 : Vec F S64x200 .i32) (acc : Vec F S1x1 .f32) :
    sout0_C_0 c i a1 h1 a2 h2 a3 h3 a4 h4 hc0 hc1 x0 x1 acc = step x0 x1 acc := by
  unfold sout0_C_0
  rw [View.read_writes_eq_canon _ _ _ (scover0_C_0 c i a1 h1 a2 h2 a3 h3 a4 h4 hc0 hc1 x0 x1 acc)]
  unfold kernelRun0_C
  dsimp only
  sl_unfold_words
  rw [View.canon_unit_zero offsets_zero]
  simp only [View.readAt_eq_ld, h1.read_unread, h2.read_unread, h4.read_unread, View.ld_unit_zero (S := S1x1) offsets_zero,
    View.ld_unit_zero (S := S64x200) offsets_zero]

/-- and in the output block that sum divided by the number of rows: the divide reads the accumulator the same
    point has just stored. -/
theorem output_last (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S64x200 .f32) (x1 : Vec F S64x200 .i32) (acc : Vec F S1x1 .f32) :
    out0_C_2 c i a1 h1 a2 h2 a3 h3 a4 h4 hc0 hc1 x0 x1 acc = k0_pay2 (step x0 x1 acc) := by
  unfold out0_C_2
  rw [View.read_writes_eq_canon _ _ _ (cover0_C_2 c i a1 h1 a2 h2 a3 h3 a4 h4 hc0 hc1 x0 x1 acc)]
  unfold kernelRun0_C
  dsimp only
  sl_unfold_words
  rw [View.canon_unit_zero offsets_zero, View.readCov_unit_zero (S := S1x1) _ offsets_zero]
  simp only [View.readAt_eq_ld, h1.read_unread, h2.read_unread, h4.read_unread, View.ld_unit_zero (S := S1x1) offsets_zero,
    View.ld_unit_zero (S := S64x200) offsets_zero]

end Cert.KernelIdeal.Pieces

end
-- ==== Proof.Accum.lean ====
/-
  The kernel's run, read as a value at every float instance.

  The grid has 64 points. The accumulator the body carries between them holds, after point `n`, the stored zero with
  the sums of blocks `0, …, n` added to it one after the other, in point order (`acc`): what the generated frame
  says the scratch buffer holds after each point (`Gen.outsAt0`) is this running sum, by induction on the point. The
  output block is written by the last point only — the accumulator after point 63 divided by the number of rows
  (`result`) — and that point's block is the whole one-element result array, so the array ends holding it. The one
  host operation after the region reshapes that [1, 1] array to the scalar the program returns.
-/
import proofs.«167054_j63350767616715_2_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ) (ρ : Dev nD → PrngReg)

/-- The accumulator after point `n`: the stored zero plus block 0's sum, then each later block's sum added in turn. -/
def acc (c : Dev nD) : (n : ℕ) → n < cfg0.N → Vec F S1x1 .f32
  | 0, h => step (iblk m c 0 ⟨0, h⟩) (iblk m c 1 ⟨0, h⟩) (k0_pay3 (F := F))
  | n + 1, h => step (iblk m c 0 ⟨n + 1, h⟩) (iblk m c 1 ⟨n + 1, h⟩) (acc c n (Nat.lt_of_succ_lt h))

/-- What the scratch buffer holds after point `n` is the running sum — by induction on the point: the first point is
    the case that stores the zero; a later point is the last one or a middle one, and in both the body adds its block's
    sum to what the point before left. -/
theorem scratch_eq (c : Dev nD) : ∀ (n : ℕ) (h : n < cfg0.N), (outsAt0 m c n h).2 = acc m c n h
  | 0, h => by
    have H1 : ¬(⟨0, h⟩ : Fin cfg0.N).val % 64 = 63 := by show ¬(0 % 64 = 63); decide
    refine (congrArg Prod.snd (outsAt0_A m c ⟨0, h⟩ rfl H1)).trans ?_
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (fun h' => H1 ((hcond0_1 ⟨0, h⟩).mp h'))
      (iblk m c 0 ⟨0, h⟩) (iblk m c 1 ⟨0, h⟩)
  | n + 1, h => by
    have hN : n + 1 < 64 := lt_of_lt_of_eq h (show cfg0.N = 64 from N_0)
    have h0 : ¬(⟨n + 1, h⟩ : Fin cfg0.N).val % 64 = 0 := by dsimp only; omega
    by_cases h1 : (⟨n + 1, h⟩ : Fin cfg0.N).val % 64 = 63
    · refine (congrArg Prod.snd (outsAt0_C m c ⟨n + 1, h⟩ h0 h1)).trans ?_
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun h' => h0 ((hcond0_0 ⟨n + 1, h⟩).mp h')) ((hcond0_1 ⟨n + 1, h⟩).mpr h1)
        (iblk m c 0 ⟨n + 1, h⟩) (iblk m c 1 ⟨n + 1, h⟩) (outsAt0 m c n (Nat.lt_of_succ_lt h)).2).trans ?_
      show step _ _ (outsAt0 m c n _).2 = step _ _ (acc m c n _)
      rw [scratch_eq c n]
    · refine (congrArg Prod.snd (outsAt0_B m c ⟨n + 1, h⟩ h0 h1)).trans ?_
      refine (scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun h' => h0 ((hcond0_0 ⟨n + 1, h⟩).mp h')) (fun h' => h1 ((hcond0_1 ⟨n + 1, h⟩).mp h'))
        (iblk m c 0 ⟨n + 1, h⟩) (iblk m c 1 ⟨n + 1, h⟩) (outsAt0 m c n (Nat.lt_of_succ_lt h)).2).trans ?_
      show step _ _ (outsAt0 m c n _).2 = step _ _ (acc m c n _)
      rw [scratch_eq c n]

/-- At the last point the output block holds the running sum after that point, divided by the number of rows. -/
theorem output_eq (c : Dev nD) (t : Fin cfg0.N) (h1 : t.val % 64 = 63) :
    (outsAt0 m c t.val t.isLt).1 = k0_pay2 (acc m c t.val t.isLt) := by
  obtain ⟨n, hn⟩ := t
  cases n with
  | zero => exact absurd h1 (by show ¬(0 % 64 = 63); decide)
  | succ n =>
    have hN : n + 1 < 64 := lt_of_lt_of_eq hn (show cfg0.N = 64 from N_0)
    have h0 : ¬(⟨n + 1, hn⟩ : Fin cfg0.N).val % 64 = 0 := by dsimp only at h1 ⊢; omega
    refine (congrArg Prod.fst (outsAt0_C m c ⟨n + 1, hn⟩ h0 h1)).trans ?_
    refine (output_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h' => h0 ((hcond0_0 ⟨n + 1, hn⟩).mp h')) ((hcond0_1 ⟨n + 1, hn⟩).mpr h1)
      (iblk m c 0 ⟨n + 1, hn⟩) (iblk m c 1 ⟨n + 1, hn⟩) (outsAt0 m c n (Nat.lt_of_succ_lt hn)).2).trans ?_
    show k0_pay2 (step _ _ (outsAt0 m c n _).2) = k0_pay2 (step _ _ (acc m c n _))
    rw [scratch_eq m c n]

/-- The last point of the grid. -/
abbrev lastPoint : Fin cfg0.N := ⟨63, by rw [show cfg0.N = 64 from N_0]; decide⟩

/-- The contents of the one-element result array after the run: the running sum after the last point, divided by
    the number of rows. -/
abbrev result (c : Dev nD) : Buf (Elt F) ((c : Thread nD τ).loc main_v0) := k0_pay2 (acc m c lastPoint.val lastPoint.isLt)

/-- The one write-back, at the last point, writes it: block (0, 0) of the [1, 1] array through zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h63 : t.val % 64 = 63 := (flush0_2 t).mp hf
  have ht : t.val = 63 := by have := t.isLt; omega
  obtain rfl : t = lastPoint := Fin.ext ht
  show (cfg0.win 2).cut (grid0.coords lastPoint) ((dats m 0 c).after 2 lastPoint) = _
  rw [after0_2, output_eq m c lastPoint h63]
  have hz' : (fun a => win0_2.index lastPoint a * main_v0.ty.shape.size a) = fun _ => 0 := funext fun a => by fin_cases a <;> decide
  exact (Memref.read_access_unit_zero (Elt F) main_v0 hz' (fun a => by rw [congrFun hz' a]; simp) (result m c)).symm

/-- So the result array ends holding it: the last point's block covers the array. -/
theorem final (c : Dev nD) : (dats m 0 c).arrAt 2 cfg0.N = result m c :=
  (dats m 0 c).arrAt_eq_of_cover 2 (result m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPoint 0 * win0_2.size 0 ≤ (i 0 : Nat) ∧ (i 0 : Nat) < win0_2.index lastPoint 0 * win0_2.size 0 + win0_2.xsize (grid0.coords lastPoint) 0
                  rw [show win0_2.index lastPoint 0 * win0_2.size 0 = 0 from by decide +kernel, show win0_2.xsize (grid0.coords lastPoint) 0 = 1 from by decide +kernel]; omega
      | ⟨1, _⟩ => show win0_2.index lastPoint 1 * win0_2.size 1 ≤ (i 1 : Nat) ∧ (i 1 : Nat) < win0_2.index lastPoint 1 * win0_2.size 1 + win0_2.xsize (grid0.coords lastPoint) 1
                  rw [show win0_2.index lastPoint 1 * win0_2.size 1 = 0 from by decide +kernel, show win0_2.xsize (grid0.coords lastPoint) 1 = 1 from by decide +kernel]; omega⟩

/-- The scalar the program returns: the result array reshaped from [1, 1] to rank 0. -/
abbrev scalar (c : Dev nD) : Buf (Elt F) ((c : Thread nD τ).loc main_v1) := shapeCast S_ (result m c) shapeCasts_S1x1_S_

/-- The host operation after the region leaves that scalar in the returned buffer. -/
theorem tail_eq (c : Dev nD) :
    Pipeline.afterTail₀ cfgs (dats m) 0 (V0 m) [hostOps1] c main_v1 = scalar m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c (V0 m c) (fun w => (dats m 0 c).arrAt w (cfgs 0).N) 2).trans (final m c)
  rw [e]
  rfl

/-- The returned buffer is no array of the pipeline and is not scoped: the frame run states it among the other buffers. -/
theorem returned_mem : main_v1 ∈ Pipeline.restRefs sig (cfgs 0).spec :=
  Pipeline.mem_restRefs_of main_v1 (by decide) (by decide)

/-- THE RUN, READ: every weakly fair execution of the program terminates with the returned scalar at the running sum
    after the last point divided by the number of rows, and both argument arrays unchanged. -/
theorem run : θ_run defs (onTc (τ := τ) (main (F := F))) ⟨m, fun _ => 0, ρ⟩ fun r => ∀ c : Dev nD,
      r.2.mem ((c : Thread nD τ).loc main_v1) = scalar m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 returned_mem).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Accum

end
-- ==== Proof.PairLoss.lean ====
/-
  The loss both programs compute, as one function of the scores and the (float) labels, on the extended reals.

  A row holds 200 scores `s` and 200 labels `l`. Every ordered pair (p, n) of positions contributes
      max (0, 1 - (s p - s n)) · (l p · (1 - l n)),
  the margin hinge of "p should outrank n", weighted by "p is positive and n is negative". With P = ∑ l the number
  of positives, the row has P · (200 - P) such weighted pairs, and the row's loss is the sum of all contributions
  divided by max (P · (200 - P), 1) where P · (200 - P) > 0, and 0 elsewhere. The total is the sum of the 4096 rows'
  losses divided by 4096.

  The four float constants are kept as the words both programs print (0, 1, 200, 4096 in f32): the same word on
  both sides is never evaluated. The comparison, the selection and the quotient are the ideal instance's own, so that
  the function is defined on every extended real, infinities included, and nothing here assumes an input finite.
-/
import Idealize.ShloMosaic.PureOps.Ideal
import Mathlib.Algebra.BigOperators.Fin

noncomputable section

namespace Cert.PairLoss

open Idealize.ShloMosaic

/-- The f32 words of 0, 1, 200 (a row's length) and 4096 (the number of rows), read at the ideal instance. -/
abbrev zero : EReal := Ideal.ofBits .f32 0x00000000#32
abbrev one : EReal := Ideal.ofBits .f32 0x3F800000#32
abbrev len : EReal := Ideal.ofBits .f32 0x43480000#32
abbrev rows : EReal := Ideal.ofBits .f32 0x45800000#32

/-- One ordered pair's contribution: the hinge of the scores `sp`, `sn` times the weight of the labels `lp`, `ln`. -/
def pairTerm (sp sn lp ln : EReal) : EReal :=
  max zero (one - (sp - sn)) * (lp * (one - ln))

/-- A row's loss from the sum of its pairs' contributions and the sum of its labels. -/
def rowLoss (hinges positives : EReal) : EReal :=
  Scalar.select (Ideal.cmp .ogt (positives * (len - positives)) zero)
    (Ideal.div hinges (max (positives * (len - positives)) one)) zero

/-- A row's loss from its scores and labels: the pairs summed over the second position first, then the first. -/
def rowVal (s l : Fin 200 → EReal) : EReal :=
  rowLoss (∑ p, ∑ n, pairTerm (s p) (s n) (l p) (l n)) (∑ p, l p)

/-- The whole loss: the rows' losses summed and divided by the number of rows. -/
def total (S L : Fin 4096 → Fin 200 → EReal) : EReal :=
  Ideal.div (∑ b, rowVal (S b) (L b)) rows

end Cert.PairLoss

end
-- ==== Proof.BlockLoss.lean ====
/-
  What one grid point adds to the accumulator, at the ideal instance: the body's value `k0_pay4` of a block's 64 x 200
  scores and labels, read at its one index, is the sum over the block's 64 rows of the row's loss (PairLoss.lean).

  The body builds a [64, 200, 200] tensor whose entry (r, p, n) is the contribution of the ordered pair (p, n) of row r:
  the scores and the converted labels are viewed as columns [64, 200, 1] and as rows [64, 1, 200] and broadcast against
  each other, so entry (r, p, n) reads position p through the column view and position n through the row view. It then
  sums that tensor over n, then over p; sums the labels over p; forms the row's loss from the two sums, as a [64, 1]
  column; and sums the column over its 64 rows. At the ideal instance every lane sum is a plain finite sum, and a
  shape cast or broadcast reads one entry of its operand, so the value is the stated double sum, row by row.
-/
import proofs.«167054_j63350767616715_2_alg».proof.Proof.Gen.KernelIdeal.Skeleton
import proofs.«167054_j63350767616715_2_alg».proof.Proof.PairLoss
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.BlockLoss

open Cert.KernelIdeal Cert.KernelIdeal.Gen Cert.PairLoss

/-! ## The views and broadcasts, read at an entry -/

section Layout
variable {α : Type}

/-- The column view [64, 200] → [64, 200, 1] reads (r, p, 0) at (r, p): the same row-major position. -/
theorem col3_apply (v : S64x200.Idx → α) (r : Fin 64) (p : Fin 200) (z : Fin 1) :
    shapeCast S64x200x1 v shapeCasts_S64x200_S64x200x1 (ix3 r p z) = v (ix2 r p) :=
  shapeCast_apply v _ _ _ (by
    rw [Shape.rowMajor_val_two, Shape.rowMajor_val_three]
    show r.val * 200 + p.val = (r.val * 200 + p.val) * 1 + z.val
    have := z.isLt; omega)

/-- The row view [64, 200] → [64, 1, 200] reads (r, 0, n) at (r, n). -/
theorem row3_apply (v : S64x200.Idx → α) (r : Fin 64) (z : Fin 1) (n : Fin 200) :
    shapeCast S64x1x200 v shapeCasts_S64x200_S64x1x200 (ix3 r z n) = v (ix2 r n) :=
  shapeCast_apply v _ _ _ (by
    rw [Shape.rowMajor_val_two, Shape.rowMajor_val_three]
    show r.val * 200 + n.val = (r.val * 1 + z.val) * 200 + n.val
    have := z.isLt; omega)

/-- A column [64, 200, 1] broadcast along the last axis reads (r, p, n) at (r, p, 0). -/
theorem bcol3_apply (v : S64x200x1.Idx → α) (r : Fin 64) (p n : Fin 200) :
    broadcastTo S64x200x200 v broadcasts_S64x200x1_S64x200x200 (ix3 r p n) = v (ix3 r p (0 : Fin 1)) :=
  broadcastTo_apply v _ _ _ (fun a => match a with
    | ⟨0, _⟩ => by show r.val = if (64 : Nat) = 1 then 0 else r.val; rw [if_neg (by decide)]
    | ⟨1, _⟩ => by show p.val = if (200 : Nat) = 1 then 0 else p.val; rw [if_neg (by decide)]
    | ⟨2, _⟩ => by show 0 = if (1 : Nat) = 1 then 0 else n.val; rw [if_pos rfl])

/-- A row [64, 1, 200] broadcast along the middle axis reads (r, p, n) at (r, 0, n). -/
theorem brow3_apply (v : S64x1x200.Idx → α) (r : Fin 64) (p n : Fin 200) :
    broadcastTo S64x200x200 v broadcasts_S64x1x200_S64x200x200 (ix3 r p n) = v (ix3 r (0 : Fin 1) n) :=
  broadcastTo_apply v _ _ _ (fun a => match a with
    | ⟨0, _⟩ => by show r.val = if (64 : Nat) = 1 then 0 else r.val; rw [if_neg (by decide)]
    | ⟨1, _⟩ => by show 0 = if (1 : Nat) = 1 then 0 else p.val; rw [if_pos rfl]
    | ⟨2, _⟩ => by show n.val = if (200 : Nat) = 1 then 0 else n.val; rw [if_neg (by decide)])

/-- A vector [64] kept as a column [64, 1] reads (r, 0) at r. -/
theorem col2_apply (v : S64.Idx → α) (r : Fin 64) (z : Fin 1) :
    shapeCast S64x1 v shapeCasts_S64_S64x1 (ix2 r z) = v (ix1 r) :=
  shapeCast_apply v _ _ _ (by
    rw [Shape.rowMajor_val_one, Shape.rowMajor_val_two]
    show r.val = r.val * 1 + z.val
    have := z.isLt; omega)

/-- A one-element vector [1] kept as [1, 1] reads its one entry. -/
theorem one_apply (v : S1.Idx → α) (j : S1x1.Idx) :
    shapeCast S1x1 v shapeCasts_S1_S1x1 j = v (ix1 (0 : Fin 1)) :=
  shapeCast_apply v _ _ _ (by
    rw [Shape.rowMajor_val_one, Shape.rowMajor_val_two]
    show 0 = (j 0).val * 1 + (j 1).val
    have h0 : (j 0).val < 1 := (j 0).isLt
    have h1 : (j 1).val < 1 := (j 1).isLt
    omega)

end Layout

/-! ## The three lane sums, read at an entry -/

/-- The sum over the last axis of a [64, 200, 200] tensor, at (r, p): the sum over n of the entries (r, p, n). -/
theorem sum_last (v : FVec Ideal S64x200x200 .f32) (h : S64x200x200.Reduces [2] S64x200) (hφ : FKind.Formats .f32)
    (hacc : (0x00000000#32 : BitVec 32) = FKind.add.neutral .f32 hφ) (r : Fin 64) (p : Fin 200) :
    multiReduction .add [2] S64x200 v 0x00000000#32 h hφ hacc (ix2 r p) = ∑ n : Fin 200, v (ix3 r p n) :=
  (Ideal.multiReduction_add_single v _ h hφ hacc (ix2 r p)).trans
    (Finset.sum_congr rfl fun n _ => congrArg v (funext fun a => Fin.ext (by
      match a with | ⟨0, _⟩ => rfl | ⟨1, _⟩ => rfl | ⟨2, _⟩ => rfl)))

/-- The sum over the last axis of a [64, 200] matrix, at r: the sum over p of the entries (r, p). -/
theorem sum_cols (v : FVec Ideal S64x200 .f32) (h : S64x200.Reduces [1] S64) (hφ : FKind.Formats .f32)
    (hacc : (0x00000000#32 : BitVec 32) = FKind.add.neutral .f32 hφ) (r : Fin 64) :
    multiReduction .add [1] S64 v 0x00000000#32 h hφ hacc (ix1 r) = ∑ p : Fin 200, v (ix2 r p) :=
  (Ideal.multiReduction_add_single v _ h hφ hacc (ix1 r)).trans
    (Finset.sum_congr rfl fun p _ => congrArg v (funext fun a => Fin.ext (by
      match a with | ⟨0, _⟩ => rfl | ⟨1, _⟩ => rfl)))

/-- The sum over the rows of a [64, 1] column, at its one entry: the sum over r of the entries (r, 0). -/
theorem sum_rows (v : FVec Ideal S64x1 .f32) (h : S64x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ r : Fin 64, v (ix2 r (0 : Fin 1)) :=
  (Ideal.multiReduction_add_single v _ h hφ hacc (ix1 (0 : Fin 1))).trans
    (Finset.sum_congr rfl fun r _ => congrArg v (funext fun a => Fin.ext (by
      match a with | ⟨0, _⟩ => rfl | ⟨1, _⟩ => rfl)))

/-! ## The body's stages -/

/-- The tensor of the pairs' contributions, as the body computes it from the scores `x` and the float labels `l`. -/
def pairs (x l : FVec Ideal S64x200 .f32) : FVec Ideal S64x200x200 .f32 :=
  mulf
    (maximumf (broadcast S64x200x200 (Scalar.ofBits (F := Ideal) .f32 0x00000000#32))
      (subf (broadcast S64x200x200 (Scalar.ofBits (F := Ideal) .f32 0x3F800000#32))
        (subf (broadcastTo S64x200x200 (shapeCast S64x200x1 x shapeCasts_S64x200_S64x200x1) broadcasts_S64x200x1_S64x200x200)
          (broadcastTo S64x200x200 (shapeCast S64x1x200 x shapeCasts_S64x200_S64x1x200) broadcasts_S64x1x200_S64x200x200))))
    (mulf (broadcastTo S64x200x200 (shapeCast S64x200x1 l shapeCasts_S64x200_S64x200x1) broadcasts_S64x200x1_S64x200x200)
      (broadcastTo S64x200x200
        (subf (broadcast S64x1x200 (Scalar.ofBits (F := Ideal) .f32 0x3F800000#32)) (shapeCast S64x1x200 l shapeCasts_S64x200_S64x1x200))
        broadcasts_S64x1x200_S64x200x200))

/-- Entry (r, p, n) of that tensor is the contribution of the ordered pair (p, n) of row r. -/
theorem pairs_apply (x l : FVec Ideal S64x200 .f32) (r : Fin 64) (p n : Fin 200) :
    pairs x l (ix3 r p n) = pairTerm (x (ix2 r p)) (x (ix2 r n)) (l (ix2 r p)) (l (ix2 r n)) := by
  show max _ (_ - (broadcastTo S64x200x200 _ _ (ix3 r p n) - broadcastTo S64x200x200 _ _ (ix3 r p n)))
      * (broadcastTo S64x200x200 _ _ (ix3 r p n) * broadcastTo S64x200x200 _ _ (ix3 r p n)) = _
  rw [bcol3_apply, brow3_apply, bcol3_apply, brow3_apply, col3_apply, row3_apply, col3_apply]
  show max _ (_ - (x (ix2 r p) - x (ix2 r n))) * (l (ix2 r p) * (_ - shapeCast S64x1x200 l _ (ix3 r (0 : Fin 1) n))) = _
  rw [row3_apply]
  rfl

/-- The rows' losses as a [64, 1] column, from the column of the pairs' sums and the column of the labels' sums. -/
def rowsLoss (hinges positives : FVec Ideal S64x1 .f32) : FVec Ideal S64x1 .f32 :=
  select
    (cmpf .ogt (mulf positives (subf (broadcast S64x1 (Scalar.ofBits (F := Ideal) .f32 0x43480000#32)) positives))
      (broadcast S64x1 (Scalar.ofBits (F := Ideal) .f32 0x00000000#32)))
    (divf hinges
      (maximumf (mulf positives (subf (broadcast S64x1 (Scalar.ofBits (F := Ideal) .f32 0x43480000#32)) positives))
        (broadcast S64x1 (Scalar.ofBits (F := Ideal) .f32 0x3F800000#32))))
    (broadcast S64x1 (Scalar.ofBits (F := Ideal) .f32 0x00000000#32))

/-- Entry by entry it is the row's loss of the two sums. -/
theorem rowsLoss_apply (hinges positives : FVec Ideal S64x1 .f32) (i : S64x1.Idx) :
    rowsLoss hinges positives i = rowLoss (hinges i) (positives i) := rfl

/-- The block's value, composed of the stages: pairs, summed over n then p; labels summed over p; the rows' losses;
    their sum over the rows. -/
def blockOf (x l : FVec Ideal S64x200 .f32) : FVec Ideal S1x1 .f32 :=
  shapeCast S1x1
    (multiReduction .add [0] S1
      (rowsLoss
        (shapeCast S64x1
          (multiReduction .add [1] S64
            (multiReduction .add [2] S64x200 (pairs x l) 0x00000000#32 reduces_S64x200x200_S64x200 (.inl rfl) rfl)
            0x00000000#32 reduces_S64x200_S64 (.inl rfl) rfl)
          shapeCasts_S64_S64x1)
        (shapeCast S64x1 (multiReduction .add [1] S64 l 0x00000000#32 reduces_S64x200_S64 (.inl rfl) rfl) shapeCasts_S64_S64x1))
      0x00000000#32 reduces_S64x1_S1 (.inl rfl) rfl)
    shapeCasts_S1_S1x1

/-- The body's payload is that composition (the body's text, its named intermediates substituted). -/
theorem payload_eq (x0 : Vec Ideal S64x200 .f32) (x1 : Vec Ideal S64x200 .i32) :
    k0_pay4 (F := Ideal) x0 x1 = blockOf x0 (sitofp .f32 x1) := rfl

/-- The composition at its one entry: the sum over the 64 rows of the row's loss. -/
theorem blockOf_apply (x l : FVec Ideal S64x200 .f32) (j : S1x1.Idx) :
    blockOf x l j = ∑ r : Fin 64, rowVal (fun p => x (ix2 r p)) (fun p => l (ix2 r p)) :=
  (one_apply _ j).trans ((sum_rows _ _ _ _).trans (Finset.sum_congr rfl fun r _ =>
    (rowsLoss_apply _ _ (ix2 r (0 : Fin 1))).trans (congrArg₂ rowLoss
      ((col2_apply _ r (0 : Fin 1)).trans ((sum_cols _ _ _ _ r).trans (Finset.sum_congr rfl fun p _ =>
        (sum_last _ _ _ _ r p).trans (Finset.sum_congr rfl fun n _ => pairs_apply x l r p n))))
      ((col2_apply _ r (0 : Fin 1)).trans (sum_cols _ _ _ _ r)))))

/-- WHAT A POINT ADDS: the body's value of a block of scores `x0` and integer labels `x1`, at its one entry, is the
    sum over the block's rows of the loss of the row's scores and converted labels. -/
theorem payload_apply (x0 : Vec Ideal S64x200 .f32) (x1 : Vec Ideal S64x200 .i32) (j : S1x1.Idx) :
    k0_pay4 (F := Ideal) x0 x1 j
      = ∑ r : Fin 64, rowVal (fun p => x0 (ix2 r p)) (fun p => FloatOps.sitofp (F := Ideal) .f32 (x1 (ix2 r p))) :=
  (congrFun (payload_eq x0 x1) j).trans (blockOf_apply x0 (sitofp .f32 x1) j)

end Cert.KernelIdeal.BlockLoss

end
-- ==== Proof.SumLaws.lean ====
/-
  Two re-arrangements of a finite sum in a commutative additive monoid, with nothing of any program in them.

  A sum over the `a * b` naturals below `a * b` can be taken in `a` consecutive blocks of `b`: the position
  `b * t + r` is the `r`-th of block `t`, and every position below `a * b` is of that form exactly once. Only
  commutativity and associativity of `+` are used, so the law holds on the extended reals with their infinities.
-/
import Mathlib.Algebra.BigOperators.Fin
import Mathlib.Logic.Equiv.Fin.Basic

namespace Cert.SumLaws

open Finset

/-- The `n = a * b` terms `f 0, …, f (n - 1)` summed in `a` consecutive blocks of `b`: block `t` holds the
    terms at `b * t + r` for `r < b`. -/
theorem sum_fin_blocks {M : Type*} [AddCommMonoid M] {n : ℕ} (a b : ℕ) (hn : n = a * b) (f : ℕ → M) :
    ∑ k : Fin n, f k.val = ∑ t : Fin a, ∑ r : Fin b, f (b * t.val + r.val) := by
  subst hn
  rw [← (finProdFinEquiv (m := a) (n := b)).sum_comp, Fintype.sum_prod_type]
  refine Finset.sum_congr rfl fun t _ => Finset.sum_congr rfl fun r _ => ?_
  rw [finProdFinEquiv_apply_val, Nat.add_comm]

/-- A sum over `Fin n` of a function of the value is the sum over the naturals below `n`. -/
theorem sum_fin_eq_range {M : Type*} [AddCommMonoid M] (n : ℕ) (f : ℕ → M) :
    ∑ k : Fin n, f k.val = ∑ k ∈ range n, f k :=
  Fin.sum_univ_eq_sum_range f n

end Cert.SumLaws
-- ==== Proof.KernelTotal.lean ====
/-
  The kernel, read at the ideal instance: its returned scalar is the loss of PairLoss.lean of its two arguments.

  Point t's blocks are rows 64 t, …, 64 t + 63 of the two argument arrays (the window's index map sends t to block
  (t, 0) of 64 x 200 entries), so what point t adds to the accumulator is the sum of those 64 rows' losses. The
  accumulator starts from a stored zero and adds one block's sum per point, in point order: after point n it holds the
  sum of the losses of rows 0, …, 64 (n + 1) - 1. Addition on the extended reals is commutative and associative, so after
  the last point this is the sum of all 4096 rows' losses however it was grouped; the output is that sum divided by 4096.
  No input is assumed finite anywhere.
-/
import proofs.«167054_j63350767616715_2_alg».proof.Proof.Accum
import proofs.«167054_j63350767616715_2_alg».proof.Proof.BlockLoss
import proofs.«167054_j63350767616715_2_alg».proof.Proof.SumLaws

noncomputable section

open Idealize.ShloMosaic Idealize.ShloMosaic.TcCoe Idealize.ShloMosaic.ValueIdx Idealize.SL.Sem

namespace Cert.KernelIdeal.KernelTotal

open Cert.KernelIdeal Cert.KernelIdeal.Gen Cert.KernelIdeal.Pieces Cert.KernelIdeal.Accum Cert.KernelIdeal.BlockLoss Cert.PairLoss

/-! ## A block read through its window is 64 consecutive rows of the array (any float instance) -/

section Blocks
variable {F : FTy → Type} [FloatOps F]
variable (m : (ℓ : Loc nD τ sig) → Buf (Elt F) ℓ)

/-- Both input windows' index maps send point t to block (t, 0). -/
theorem index_scores : ∀ t : Fin cfg0.N, win0_0.index t 0 = t.val ∧ win0_0.index t 1 = 0 :=
  (by decide +kernel : ∀ t : Fin grid0.N, win0_0.index t 0 = t.val ∧ win0_0.index t 1 = 0)
theorem index_labels : ∀ t : Fin cfg0.N, win0_1.index t 0 = t.val ∧ win0_1.index t 1 = 0 :=
  (by decide +kernel : ∀ t : Fin grid0.N, win0_1.index t 0 = t.val ∧ win0_1.index t 1 = 0)

/-- Entry (r, p) of point t's block of scores is entry (64 t + r, p) of the first argument. -/
theorem scores_apply (c : Dev nD) (t : Fin cfg0.N) (r : Fin 64) (p : Fin 200) (hb : 64 * t.val + r.val < 4096) :
    (iblk m c 0 t : Vec F S64x200 .f32) (ix2 r p) = m ((c : Thread nD τ).loc main_arg0) (ix2 ⟨64 * t.val + r.val, hb⟩ p) := by
  unfold iblk
  rw [View.read_apply]
  refine (congrFun (V_main_arg0 m c) _).trans (congrArg _ (funext fun a => Fin.ext ?_))
  match a with
  | ⟨0, _⟩ => show win0_0.index t 0 * 64 + 1 * r.val = 64 * t.val + r.val; rw [(index_scores t).1]; omega
  | ⟨1, _⟩ => show win0_0.index t 1 * 200 + 1 * p.val = p.val; rw [(index_scores t).2]; omega

/-- Entry (r, p) of point t's block of labels is entry (64 t + r, p) of the second argument. -/
theorem labels_apply (c : Dev nD) (t : Fin cfg0.N) (r : Fin 64) (p : Fin 200) (hb : 64 * t.val + r.val < 4096) :
    (iblk m c 1 t : Vec F S64x200 .i32) (ix2 r p) = m ((c : Thread nD τ).loc main_arg1) (ix2 ⟨64 * t.val + r.val, hb⟩ p) := by
  unfold iblk
  rw [View.read_apply]
  refine (congrFun (V_main_arg1 m c) _).trans (congrArg _ (funext fun a => Fin.ext ?_))
  match a with
  | ⟨0, _⟩ => show win0_1.index t 0 * 64 + 1 * r.val = 64 * t.val + r.val; rw [(index_labels t).1]; omega
  | ⟨1, _⟩ => show win0_1.index t 1 * 200 + 1 * p.val = p.val; rw [(index_labels t).2]; omega

end Blocks

/-! ## The values at the ideal instance -/

variable (m : (ℓ : Loc nD τ sig) → Buf (Elt Ideal) ℓ)

/-- Row b's loss of the two argument arrays; zero past the last row (the sums below are indexed by naturals). -/
def rowAt (c : Dev nD) (b : ℕ) : EReal :=
  if h : b < 4096 then
    rowVal (fun p => m ((c : Thread nD τ).loc main_arg0) (ix2 ⟨b, h⟩ p))
      (fun p => FloatOps.sitofp (F := Ideal) .f32 (m ((c : Thread nD τ).loc main_arg1) (ix2 ⟨b, h⟩ p)))
  else 0

/-- The sum of the losses of the 64 rows of block t. -/
def blockAt (c : Dev nD) (t : ℕ) : EReal := ∑ r : Fin 64, rowAt m c (64 * t + r.val)

/-- What point t adds to the accumulator is block t's sum of row losses. -/
theorem added_eq (c : Dev nD) (t : Fin cfg0.N) (j : S1x1.Idx) :
    k0_pay4 (F := Ideal) (iblk m c 0 t) (iblk m c 1 t) j = blockAt m c t.val := by
  have hN : t.val < 64 := lt_of_lt_of_eq t.isLt (show cfg0.N = 64 from N_0)
  refine (payload_apply (iblk m c 0 t) (iblk m c 1 t) j).trans (Finset.sum_congr rfl fun r _ => ?_)
  have hb : 64 * t.val + r.val < 4096 := by have := r.isLt; omega
  unfold rowAt
  rw [dif_pos hb]
  refine congrArg₂ rowVal (funext fun p => scores_apply m c t r p hb) (funext fun p => ?_)
  exact congrArg (FloatOps.sitofp (F := Ideal) .f32) (labels_apply m c t r p hb)

/-- The body's accumulation at an entry: the old value plus what the point adds. -/
theorem step_apply (x0 : Vec Ideal S64x200 .f32) (x1 : Vec Ideal S64x200 .i32) (a : Vec Ideal S1x1 .f32) (j : S1x1.Idx) :
    step x0 x1 a j = a j + k0_pay4 (F := Ideal) x0 x1 j := by
  show shapeCast S1x1 (addf a (k0_pay4 (F := Ideal) x0 x1)) shapeCasts_S1x1_S1x1 j = _
  rw [shapeCast_self]
  rfl

/-- The zero the first point stores is the extended real 0. -/
theorem stored_zero (j : S1x1.Idx) : k0_pay3 (F := Ideal) j = 0 := by
  show shapeCast S1x1 (broadcast S1x1 (Scalar.ofBits (F := Ideal) .f32 0x00000000#32)) shapeCasts_S1x1_S1x1 j = 0
  rw [shapeCast_self]
  exact Ideal.ofBits_zero_f32

/-- After point n the accumulator holds the sum of blocks 0, …, n. -/
theorem acc_apply (c : Dev nD) (j : S1x1.Idx) : ∀ (n : ℕ) (h : n < cfg0.N),
    acc m c n h j = ∑ t ∈ Finset.range (n + 1), blockAt m c t
  | 0, h => by
    show step (iblk m c 0 ⟨0, h⟩) (iblk m c 1 ⟨0, h⟩) (k0_pay3 (F := Ideal)) j = _
    rw [step_apply, stored_zero, zero_add, added_eq m c ⟨0, h⟩ j, Finset.sum_range_one]
  | n + 1, h => by
    show step (iblk m c 0 ⟨n + 1, h⟩) (iblk m c 1 ⟨n + 1, h⟩) (acc m c n (Nat.lt_of_succ_lt h)) j = _
    rw [step_apply, acc_apply c j n, added_eq m c ⟨n + 1, h⟩ j, Finset.sum_range_succ _ (n + 1)]

/-- The 64 blocks' sums are the 4096 rows' losses, summed. -/
theorem blocks_eq (c : Dev nD) :
    ∑ t ∈ Finset.range 64, blockAt m c t
      = ∑ b : Fin 4096, rowVal (fun p => m ((c : Thread nD τ).loc main_arg0) (ix2 b p))
          (fun p => FloatOps.sitofp (F := Ideal) .f32 (m ((c : Thread nD τ).loc main_arg1) (ix2 b p))) := by
  rw [← SumLaws.sum_fin_eq_range 64 (blockAt m c)]
  unfold blockAt
  rw [← SumLaws.sum_fin_blocks 64 64 (show 4096 = 64 * 64 from rfl) (rowAt m c)]
  refine Finset.sum_congr rfl fun b _ => ?_
  unfold rowAt
  rw [dif_pos b.isLt]

/-- Any two indices of the one-element block are equal. -/
theorem block_index_eq (k k' : S1x1.Idx) : k = k' := funext fun a => Fin.ext (by
  match a with
  | ⟨0, _⟩ =>
    have h : (k 0).val < 1 := (k 0).isLt
    have h' : (k' 0).val < 1 := (k' 0).isLt
    show (k 0).val = (k' 0).val; omega
  | ⟨1, _⟩ =>
    have h : (k 1).val < 1 := (k 1).isLt
    have h' : (k' 1).val < 1 := (k' 1).isLt
    show (k 1).val = (k' 1).val; omega)

/-- THE KERNEL'S VALUE: the returned scalar, at its one index, is the whole loss of the two argument arrays. -/
theorem scalar_apply (c : Dev nD) (i : S_.Idx) :
    scalar m c i
      = total (fun b p => m ((c : Thread nD τ).loc main_arg0) (ix2 b p))
          (fun b p => FloatOps.sitofp (F := Ideal) .f32 (m ((c : Thread nD τ).loc main_arg1) (ix2 b p))) := by
  show shapeCast S_ (result m c) shapeCasts_S1x1_S_ i = _
  unfold shapeCast
  show Ideal.div (acc m c lastPoint.val lastPoint.isLt _) rows = _
  unfold total
  rw [acc_apply m c _ lastPoint.val lastPoint.isLt]
  exact congrArg (fun s => Ideal.div s rows) (blocks_eq m c)

end Cert.KernelIdeal.KernelTotal

end
-- ==== Proof.RefTotal.lean ====
/-
  The reference, read at the ideal instance: its returned scalar is the loss of PairLoss.lean of its two arguments.

  The reference builds, over all 4096 rows at once, the same [4096, 200, 200] tensor of pair contributions (entry
  (b, p, n) reads position p of row b through the column broadcast and position n through the row broadcast), sums
  it over BOTH trailing axes in one reduction, sums the converted labels over their trailing axis, forms each row's loss
  from the two sums, sums the 4096 losses and divides by 4096. Each sum starts from a zero, which adds nothing. The
  one stage the generated reader leaves unread is the two-axis reduction: the entries that reduce to row b are exactly
  the entries (b, p, n), one for each pair (p, n), so their sum is the double sum over p and n.
-/
import proofs.«167054_j63350767616715_2_alg».proof.Proof.RefReadP
import proofs.«167054_j63350767616715_2_alg».proof.Proof.PairLoss
import Idealize.ShloMosaic.Lib.ValueIdx
import Idealize.ShloMosaic.PureOps.Ideal.Laws

noncomputable section

open Idealize.ShloMosaic Idealize.ShloMosaic.ValueIdx

namespace Cert.ReferenceIdeal.RefTotal

open Cert.ReferenceIdeal Cert.ReferenceIdeal.Gen Cert.ReferenceIdeal.ReadP Cert.PairLoss

/-- A sum over the indices of a rank-1 shape is the sum over its one coordinate. -/
theorem sum_idx1 {M : Type*} [AddCommMonoid M] {n : ℕ} (f : (⟨1, ![n]⟩ : Shape).Idx → M) :
    ∑ j, f j = ∑ b : Fin n, f (ix1 b) :=
  (Fintype.sum_equiv (⟨fun j => j 0, ix1, fun j => (eq_ix1 j).symm, fun _ => rfl⟩ : (⟨1, ![n]⟩ : Shape).Idx ≃ Fin n) f
    (fun b => f (ix1 b)) (fun j => congrArg f (eq_ix1 j)))

/-- The zero every sum starts from adds nothing. -/
theorem zero_word_add (x : EReal) : Ideal.ofBits .f32 0x00000000#32 + x = x := by
  rw [Ideal.ofBits_zero_f32, zero_add]

variable (x0 : (⟨S4096x200, .f32⟩ : BufTy).Contents (Elt Ideal)) (x1 : (⟨S4096x200, .i32⟩ : BufTy).Contents (Elt Ideal))

/-- Entry (b, p, n) of the reference's pair tensor is the contribution of the ordered pair (p, n) of row b. -/
theorem pair_apply (b : Fin 4096) (p n : Fin 200) :
    val_main_v17 (F := Ideal) x0 x1 (ix3 b p n)
      = pairTerm (x0 (ix2 b p)) (x0 (ix2 b n)) (FloatOps.sitofp (F := Ideal) .f32 (x1 (ix2 b p)))
          (FloatOps.sitofp (F := Ideal) .f32 (x1 (ix2 b n))) := by
  have e3 : idx_main_v1 (idx_main_v3 (ix3 b p n)) = ix2 b p :=
    funext fun a => Fin.ext (by match a with | ⟨0, _⟩ => rfl | ⟨1, _⟩ => rfl)
  have e4 : idx_main_v2 (idx_main_v4 (ix3 b p n)) = ix2 b n :=
    funext fun a => Fin.ext (by match a with | ⟨0, _⟩ => rfl | ⟨1, _⟩ => rfl)
  have e10 : idx_main_v6 (idx_main_v10 (ix3 b p n)) = ix2 b p :=
    funext fun a => Fin.ext (by match a with | ⟨0, _⟩ => rfl | ⟨1, _⟩ => rfl)
  have e11 : idx_main_v7 (idx_main_v11 (ix3 b p n)) = ix2 b n :=
    funext fun a => Fin.ext (by match a with | ⟨0, _⟩ => rfl | ⟨1, _⟩ => rfl)
  simp only [val_main_v17_apply, val_main_v16_apply, val_main_v15_apply, val_main_cst_1_apply, val_main_v14_apply, val_main_v13_apply, val_main_cst_0_apply, val_main_v5_apply, val_main_v3_apply, val_main_v1_apply, val_main_v4_apply, val_main_v2_apply, val_main_v12_apply, val_main_v10_apply, val_main_v6_apply, val_main_v0_apply, val_main_v11_apply, val_main_v9_apply, val_main_v8_apply, val_main_cst_apply, val_main_v7_apply, e3, e4, e10, e11]
  rfl

/-- The entries of a [4096, 200, 200] tensor that the reduction over both trailing axes sends to row b are the
    entries (b, p, n): their sum is the double sum over p and n. -/
theorem sum_pairs (y : S4096x200x200.Idx → EReal) (b : Fin 4096) :
    ∑ i ∈ Finset.univ.filter (fun i : S4096x200x200.Idx => reducesTo_S4096x200x200_S4096_d1_2.drop i = ix1 b), y i
      = ∑ p : Fin 200, ∑ n : Fin 200, y (ix3 b p n) := by
  rw [← Finset.sum_product' (s := (Finset.univ : Finset (Fin 200))) (t := (Finset.univ : Finset (Fin 200)))
    (f := fun p n => y (ix3 b p n))]
  have hd : ∀ i : S4096x200x200.Idx, (reducesTo_S4096x200x200_S4096_d1_2.drop i (0 : Fin 1)).val = (i 0).val :=
    fun i => Shape.ReducesTo.drop_apply_val_of_eq _ i 0 0
  have hleft : ∀ i ∈ Finset.univ.filter (fun i : S4096x200x200.Idx => reducesTo_S4096x200x200_S4096_d1_2.drop i = ix1 b),
      ix3 b (i 1 : Fin 200) (i 2 : Fin 200) = i := fun i hi => by
    have hb : (i 0).val = b.val :=
      (hd i).symm.trans (congrArg (fun j : S4096.Idx => (j 0).val) (Finset.mem_filter.mp hi).2)
    funext a
    apply Fin.ext
    match a with
    | ⟨0, _⟩ => exact hb.symm
    | ⟨1, _⟩ => rfl
    | ⟨2, _⟩ => rfl
  refine Finset.sum_bij' (fun i _ => ((i 1 : Fin 200), (i 2 : Fin 200))) (fun pn _ => ix3 b pn.1 pn.2) ?_ ?_ ?_ ?_ ?_
  · intro i _; exact Finset.mem_product.mpr ⟨Finset.mem_univ _, Finset.mem_univ _⟩
  · intro pn _
    refine Finset.mem_filter.mpr ⟨Finset.mem_univ _, funext fun a => Fin.ext ?_⟩
    match a with
    | ⟨0, _⟩ => exact hd _
  · intro i hi; exact hleft i hi
  · intro pn _; rfl
  · intro i hi; exact congrArg y (hleft i hi).symm

/-- The two-axis reduction of the pair tensor, at row b: the pairs' contributions summed over p and n. -/
theorem hinges_apply (b : Fin 4096) :
    val_main_v22 (F := Ideal) x0 x1 (ix1 b)
      = ∑ p : Fin 200, ∑ n : Fin 200, pairTerm (x0 (ix2 b p)) (x0 (ix2 b n))
          (FloatOps.sitofp (F := Ideal) .f32 (x1 (ix2 b p))) (FloatOps.sitofp (F := Ideal) .f32 (x1 (ix2 b n))) := by
  unfold val_main_v22
  simp only [Host.reduceAdd, Ideal.hostReduceAdd_def]
  unfold Ideal.hostReduceAdd
  refine (zero_word_add _).trans ((sum_pairs _ b).trans ?_)
  exact Finset.sum_congr rfl fun p _ => Finset.sum_congr rfl fun n _ => pair_apply x0 x1 b p n

/-- The reduction of the converted labels, at row b: their sum over the row. -/
theorem positives_apply (b : Fin 4096) :
    val_main_v18 (F := Ideal) x1 (ix1 b) = ∑ p : Fin 200, FloatOps.sitofp (F := Ideal) .f32 (x1 (ix2 b p)) :=
  (val_main_v18_apply x1 (ix1 b)).trans ((zero_word_add _).trans (Finset.sum_congr rfl fun p _ =>
    congrArg (fun k => FloatOps.sitofp (F := Ideal) .f32 (x1 k))
      (funext fun a => Fin.ext (by match a with | ⟨0, _⟩ => rfl | ⟨1, _⟩ => rfl))))

/-- A row's entry of the reference's per-row losses is the row's loss of the two reductions at that row. -/
theorem tail_apply (j : S4096.Idx) :
    val_main_v28 (F := Ideal) x0 x1 j = rowLoss (val_main_v22 (F := Ideal) x0 x1 j) (val_main_v18 (F := Ideal) x1 j) := rfl

/-- So row b's entry is the row's loss of row b's scores and converted labels. -/
theorem row_apply (b : Fin 4096) :
    val_main_v28 (F := Ideal) x0 x1 (ix1 b)
      = rowVal (fun p => x0 (ix2 b p)) (fun p => FloatOps.sitofp (F := Ideal) .f32 (x1 (ix2 b p))) :=
  (tail_apply x0 x1 (ix1 b)).trans (congrArg₂ rowLoss (hinges_apply x0 x1 b) (positives_apply x1 b))

/-- THE REFERENCE'S VALUE: its last stage, at its one index, is the whole loss of the two argument arrays. -/
theorem total_apply (i : S_.Idx) :
    val_main_v30 (F := Ideal) x0 x1 i
      = total (fun b p => x0 (ix2 b p)) (fun b p => FloatOps.sitofp (F := Ideal) .f32 (x1 (ix2 b p))) :=
  (val_main_v30_apply x0 x1 i).trans (congrArg (fun s => Ideal.div s rows)
    ((val_main_v29_apply x0 x1 i).trans ((zero_word_add _).trans
      ((sum_idx1 _).trans (Finset.sum_congr rfl fun b _ => row_apply x0 x1 b)))))

end Cert.ReferenceIdeal.RefTotal

end
-- ==== Proof.lean ====
/-
  A pairwise margin-ranking loss over 4096 rows of 200 scores with 0/1 labels, computed two ways, is one number.

  For a row with scores s and labels l, every ordered pair (p, n) of positions contributes
  max (0, 1 - (s p - s n)) · (l p · (1 - l n)); the row's loss is the sum of the contributions divided by
  max (P · (200 - P), 1), P the sum of the labels, where P · (200 - P) > 0, and 0 elsewhere; the result is the sum of the
  rows' losses divided by 4096 (Proof/PairLoss.lean).

  The kernel walks the rows in 64 blocks of 64. At each block it sums the pairs' contributions over n, then over p, forms
  the 64 rows' losses and adds their sum to a one-element accumulator that starts from a stored zero; after the last
  block it divides the accumulator by 4096 (Proof/Pieces.lean, Proof/Accum.lean: the accumulator after each block, by
  induction on the block; Proof/BlockLoss.lean, Proof/KernelTotal.lean: its value on the extended reals). The reference
  sums each row's contributions over both positions at once and all 4096 rows' losses at once (Proof/RefTotal.lean).
  The two differ only in how finite sums are grouped and ordered, and addition on the extended reals is commutative and
  associative at the infinities too: no input is assumed finite, and the precondition is never opened. The kernel's
  idealization rewrote no operation, so it preserves the kernel trivially; each program's frame is its run with the
  result forgotten.
-/
import proofs.«167054_j63350767616715_2_alg».proof.Defs
import proofs.«167054_j63350767616715_2_alg».proof.Proof.Gen.Kernel
import proofs.«167054_j63350767616715_2_alg».proof.Proof.Gen.Kernel.Frame
import proofs.«167054_j63350767616715_2_alg».proof.Proof.Gen.KernelIdeal
import proofs.«167054_j63350767616715_2_alg».proof.Proof.Gen.KernelIdeal.Frame
import proofs.«167054_j63350767616715_2_alg».proof.Proof.Gen.ReferenceIdeal
import proofs.«167054_j63350767616715_2_alg».proof.Proof.Gen.Pre_finite_inputs
import proofs.«167054_j63350767616715_2_alg».proof.Proof.KernelTotal
import proofs.«167054_j63350767616715_2_alg».proof.Proof.RefTotal
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the two arguments both programs end with the same scalar: each is the loss of the
    argument arrays, the kernel's accumulated block by block and the reference's summed at once. -/
theorem algebraic : Cert.algebraic_KernelIdeal_ReferenceIdeal := by
  intro m ρ m' ρ' _ hagree
  refine ⟨fun c => Cert.KernelIdeal.Accum.scalar m c, Cert.KernelIdeal.Accum.run (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v30_eq (F := Ideal) _ _).trans (funext fun i => ?_)
  rw [Cert.ReferenceIdeal.RefTotal.total_apply, (hagree c).1, (hagree c).2]
  exact (Cert.KernelIdeal.KernelTotal.scalar_apply m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
